-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S4x2048x4096 .f32) (main_arg1 : IVec S4096x4096 32) (main_arg2 : FVec F S4096x32 .f32) (main_arg3 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S8192x4096 : Shape := ⟨2, ![8192, 4096]⟩
abbrev S1024x4096 : Shape := ⟨2, ![1024, 4096]⟩
abbrev S128x4096 : Shape := ⟨2, ![128, 4096]⟩
abbrev S128x32 : Shape := ⟨2, ![128, 32]⟩
abbrev S1024x128 : Shape := ⟨2, ![1024, 128]⟩
abbrev S128x1024 : Shape := ⟨2, ![128, 1024]⟩
abbrev S128x128 : Shape := ⟨2, ![128, 128]⟩
abbrev S128x1 : Shape := ⟨2, ![128, 1]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S1024x4096, .f32⟩
  | .local _ .vmem, ⟨1, _⟩ => ⟨S1024x4096, .f32⟩
  | .local _ .vmem, ⟨2, _⟩ => ⟨S128x4096, .i32⟩
  | .local _ .vmem, ⟨3, _⟩ => ⟨S128x4096, .i32⟩
  | .local _ .vmem, ⟨4, _⟩ => ⟨S128x32, .f32⟩
  | .local _ .vmem, ⟨5, _⟩ => ⟨S128x32, .f32⟩
  | .local _ .vmem, ⟨6, _⟩ => ⟨S128x32, .f32⟩
  | .local _ .vmem, ⟨7, _⟩ => ⟨S128x32, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S128x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x4096_S128x128_0_0 : ∀ a, (![0, 0] : Fin 2 → Nat) a + S128x128.size a ≤ S128x4096.size a
  h_S128x128 : 0 < S128x128.numel
  inb_S128x32_S128x1_0_0 : ∀ a, (![0, 0] : Fin 2 → Nat) a + S128x1.size a ≤ S128x32.size a
  h_S128x1 : 0 < S128x1.numel
  broadcasts_S128x1_S128x128 : S128x1.Broadcasts S128x128
  bitsLt_bf16_f32 : FTy.bits .bf16 < FTy.bits .f32
  inb_S128x1024_S128x128_0_0 : ∀ a, (![0, 0] : Fin 2 → Nat) a + S128x128.size a ≤ S128x1024.size a
  shapeCasts_S128x128_S128x128 : S128x128.ShapeCasts S128x128
  packedbf16_S128x1024_S128x128_0_0 : (Rect.unit (s := S128x1024) ![0, 0] S128x128.size inb_S128x1024_S128x128_0_0).PackedRows (EltTy.packing .bf16)
  inb_S128x4096_S128x128_0_128 : ∀ a, (![0, 128] : Fin 2 → Nat) a + S128x128.size a ≤ S128x4096.size a
  inb_S128x32_S128x1_0_1 : ∀ a, (![0, 1] : Fin 2 → Nat) a + S128x1.size a ≤ S128x32.size a
  inb_S128x1024_S128x128_0_128 : ∀ a, (![0, 128] : Fin 2 → Nat) a + S128x128.size a ≤ S128x1024.size a
  packedbf16_S128x1024_S128x128_0_128 : (Rect.unit (s := S128x1024) ![0, 128] S128x128.size inb_S128x1024_S128x128_0_128).PackedRows (EltTy.packing .bf16)
  inb_S128x4096_S128x128_0_256 : ∀ a, (![0, 256] : Fin 2 → Nat) a + S128x128.size a ≤ S128x4096.size a
  inb_S128x32_S128x1_0_2 : ∀ a, (![0, 2] : Fin 2 → Nat) a + S128x1.size a ≤ S128x32.size a
  inb_S128x1024_S128x128_0_256 : ∀ a, (![0, 256] : Fin 2 → Nat) a + S128x128.size a ≤ S128x1024.size a
  packedbf16_S128x1024_S128x128_0_256 : (Rect.unit (s := S128x1024) ![0, 256] S128x128.size inb_S128x1024_S128x128_0_256).PackedRows (EltTy.packing .bf16)
  inb_S128x4096_S128x128_0_384 : ∀ a, (![0, 384] : Fin 2 → Nat) a + S128x128.size a ≤ S128x4096.size a
  inb_S128x32_S128x1_0_3 : ∀ a, (![0, 3] : Fin 2 → Nat) a + S128x1.size a ≤ S128x32.size a
  inb_S128x1024_S128x128_0_384 : ∀ a, (![0, 384] : Fin 2 → Nat) a + S128x128.size a ≤ S128x1024.size a
  packedbf16_S128x1024_S128x128_0_384 : (Rect.unit (s := S128x1024) ![0, 384] S128x128.size inb_S128x1024_S128x128_0_384).PackedRows (EltTy.packing .bf16)
  inb_S128x4096_S128x128_0_512 : ∀ a, (![0, 512] : Fin 2 → Nat) a + S128x128.size a ≤ S128x4096.size a
  inb_S128x32_S128x1_0_4 : ∀ a, (![0, 4] : Fin 2 → Nat) a + S128x1.size a ≤ S128x32.size a
  inb_S128x1024_S128x128_0_512 : ∀ a, (![0, 512] : Fin 2 → Nat) a + S128x128.size a ≤ S128x1024.size a
  packedbf16_S128x1024_S128x128_0_512 : (Rect.unit (s := S128x1024) ![0, 512] S128x128.size inb_S128x1024_S128x128_0_512).PackedRows (EltTy.packing .bf16)
  inb_S128x4096_S128x128_0_640 : ∀ a, (![0, 640] : Fin 2 → Nat) a + S128x128.size a ≤ S128x4096.size a
  inb_S128x32_S128x1_0_5 : ∀ a, (![0, 5] : Fin 2 → Nat) a + S128x1.size a ≤ S128x32.size a
  inb_S128x1024_S128x128_0_640 : ∀ a, (![0, 640] : Fin 2 → Nat) a + S128x128.size a ≤ S128x1024.size a
  packedbf16_S128x1024_S128x128_0_640 : (Rect.unit (s := S128x1024) ![0, 640] S128x128.size inb_S128x1024_S128x128_0_640).PackedRows (EltTy.packing .bf16)
  inb_S128x4096_S128x128_0_768 : ∀ a, (![0, 768] : Fin 2 → Nat) a + S128x128.size a ≤ S128x4096.size a
  inb_S128x32_S128x1_0_6 : ∀ a, (![0, 6] : Fin 2 → Nat) a + S128x1.size a ≤ S128x32.size a
  inb_S128x1024_S128x128_0_768 : ∀ a, (![0, 768] : Fin 2 → Nat) a + S128x128.size a ≤ S128x1024.size a
  packedbf16_S128x1024_S128x128_0_768 : (Rect.unit (s := S128x1024) ![0, 768] S128x128.size inb_S128x1024_S128x128_0_768).PackedRows (EltTy.packing .bf16)
  inb_S128x4096_S128x128_0_896 : ∀ a, (![0, 896] : Fin 2 → Nat) a + S128x128.size a ≤ S128x4096.size a
  inb_S128x32_S128x1_0_7 : ∀ a, (![0, 7] : Fin 2 → Nat) a + S128x1.size a ≤ S128x32.size a
  inb_S128x1024_S128x128_0_896 : ∀ a, (![0, 896] : Fin 2 → Nat) a + S128x128.size a ≤ S128x1024.size a
  packedbf16_S128x1024_S128x128_0_896 : (Rect.unit (s := S128x1024) ![0, 896] S128x128.size inb_S128x1024_S128x128_0_896).PackedRows (EltTy.packing .bf16)
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  inb_S128x4096_S128x128_0_1024 : ∀ a, (![0, 1024] : Fin 2 → Nat) a + S128x128.size a ≤ S128x4096.size a
  inb_S128x32_S128x1_0_8 : ∀ a, (![0, 8] : Fin 2 → Nat) a + S128x1.size a ≤ S128x32.size a
  inb_S128x4096_S128x128_0_1152 : ∀ a, (![0, 1152] : Fin 2 → Nat) a + S128x128.size a ≤ S128x4096.size a
  inb_S128x32_S128x1_0_9 : ∀ a, (![0, 9] : Fin 2 → Nat) a + S128x1.size a ≤ S128x32.size a
  inb_S128x4096_S128x128_0_1280 : ∀ a, (![0, 1280] : Fin 2 → Nat) a + S128x128.size a ≤ S128x4096.size a
  inb_S128x32_S128x1_0_10 : ∀ a, (![0, 10] : Fin 2 → Nat) a + S128x1.size a ≤ S128x32.size a
  inb_S128x4096_S128x128_0_1408 : ∀ a, (![0, 1408] : Fin 2 → Nat) a + S128x128.size a ≤ S128x4096.size a
  inb_S128x32_S128x1_0_11 : ∀ a, (![0, 11] : Fin 2 → Nat) a + S128x1.size a ≤ S128x32.size a
  inb_S128x4096_S128x128_0_1536 : ∀ a, (![0, 1536] : Fin 2 → Nat) a + S128x128.size a ≤ S128x4096.size a
  inb_S128x32_S128x1_0_12 : ∀ a, (![0, 12] : Fin 2 → Nat) a + S128x1.size a ≤ S128x32.size a
  inb_S128x4096_S128x128_0_1664 : ∀ a, (![0, 1664] : Fin 2 → Nat) a + S128x128.size a ≤ S128x4096.size a
  inb_S128x32_S128x1_0_13 : ∀ a, (![0, 13] : Fin 2 → Nat) a + S128x1.size a ≤ S128x32.size a
  inb_S128x4096_S128x128_0_1792 : ∀ a, (![0, 1792] : Fin 2 → Nat) a + S128x128.size a ≤ S128x4096.size a
  inb_S128x32_S128x1_0_14 : ∀ a, (![0, 14] : Fin 2 → Nat) a + S128x1.size a ≤ S128x32.size a
  inb_S128x4096_S128x128_0_1920 : ∀ a, (![0, 1920] : Fin 2 → Nat) a + S128x128.size a ≤ S128x4096.size a
  inb_S128x32_S128x1_0_15 : ∀ a, (![0, 15] : Fin 2 → Nat) a + S128x1.size a ≤ S128x32.size a
  inb_S1024x4096_S1024x1024_0_1024 : ∀ a, (![0, 1024] : Fin 2 → Nat) a + S1024x1024.size a ≤ S1024x4096.size a
  inb_S128x4096_S128x128_0_2048 : ∀ a, (![0, 2048] : Fin 2 → Nat) a + S128x128.size a ≤ S128x4096.size a
  inb_S128x32_S128x1_0_16 : ∀ a, (![0, 16] : Fin 2 → Nat) a + S128x1.size a ≤ S128x32.size a
  inb_S128x4096_S128x128_0_2176 : ∀ a, (![0, 2176] : Fin 2 → Nat) a + S128x128.size a ≤ S128x4096.size a
  inb_S128x32_S128x1_0_17 : ∀ a, (![0, 17] : Fin 2 → Nat) a + S128x1.size a ≤ S128x32.size a
  inb_S128x4096_S128x128_0_2304 : ∀ a, (![0, 2304] : Fin 2 → Nat) a + S128x128.size a ≤ S128x4096.size a
  inb_S128x32_S128x1_0_18 : ∀ a, (![0, 18] : Fin 2 → Nat) a + S128x1.size a ≤ S128x32.size a
  inb_S128x4096_S128x128_0_2432 : ∀ a, (![0, 2432] : Fin 2 → Nat) a + S128x128.size a ≤ S128x4096.size a
  inb_S128x32_S128x1_0_19 : ∀ a, (![0, 19] : Fin 2 → Nat) a + S128x1.size a ≤ S128x32.size a
  inb_S128x4096_S128x128_0_2560 : ∀ a, (![0, 2560] : Fin 2 → Nat) a + S128x128.size a ≤ S128x4096.size a
  inb_S128x32_S128x1_0_20 : ∀ a, (![0, 20] : Fin 2 → Nat) a + S128x1.size a ≤ S128x32.size a
  inb_S128x4096_S128x128_0_2688 : ∀ a, (![0, 2688] : Fin 2 → Nat) a + S128x128.size a ≤ S128x4096.size a
  inb_S128x32_S128x1_0_21 : ∀ a, (![0, 21] : Fin 2 → Nat) a + S128x1.size a ≤ S128x32.size a
  inb_S128x4096_S128x128_0_2816 : ∀ a, (![0, 2816] : Fin 2 → Nat) a + S128x128.size a ≤ S128x4096.size a
  inb_S128x32_S128x1_0_22 : ∀ a, (![0, 22] : Fin 2 → Nat) a + S128x1.size a ≤ S128x32.size a
  inb_S128x4096_S128x128_0_2944 : ∀ a, (![0, 2944] : Fin 2 → Nat) a + S128x128.size a ≤ S128x4096.size a
  inb_S128x32_S128x1_0_23 : ∀ a, (![0, 23] : Fin 2 → Nat) a + S128x1.size a ≤ S128x32.size a
  inb_S1024x4096_S1024x1024_0_2048 : ∀ a, (![0, 2048] : Fin 2 → Nat) a + S1024x1024.size a ≤ S1024x4096.size a
  inb_S128x4096_S128x128_0_3072 : ∀ a, (![0, 3072] : Fin 2 → Nat) a + S128x128.size a ≤ S128x4096.size a
  inb_S128x32_S128x1_0_24 : ∀ a, (![0, 24] : Fin 2 → Nat) a + S128x1.size a ≤ S128x32.size a
  inb_S128x4096_S128x128_0_3200 : ∀ a, (![0, 3200] : Fin 2 → Nat) a + S128x128.size a ≤ S128x4096.size a
  inb_S128x32_S128x1_0_25 : ∀ a, (![0, 25] : Fin 2 → Nat) a + S128x1.size a ≤ S128x32.size a
  inb_S128x4096_S128x128_0_3328 : ∀ a, (![0, 3328] : Fin 2 → Nat) a + S128x128.size a ≤ S128x4096.size a
  inb_S128x32_S128x1_0_26 : ∀ a, (![0, 26] : Fin 2 → Nat) a + S128x1.size a ≤ S128x32.size a
  inb_S128x4096_S128x128_0_3456 : ∀ a, (![0, 3456] : Fin 2 → Nat) a + S128x128.size a ≤ S128x4096.size a
  inb_S128x32_S128x1_0_27 : ∀ a, (![0, 27] : Fin 2 → Nat) a + S128x1.size a ≤ S128x32.size a
  inb_S128x4096_S128x128_0_3584 : ∀ a, (![0, 3584] : Fin 2 → Nat) a + S128x128.size a ≤ S128x4096.size a
  inb_S128x32_S128x1_0_28 : ∀ a, (![0, 28] : Fin 2 → Nat) a + S128x1.size a ≤ S128x32.size a
  inb_S128x4096_S128x128_0_3712 : ∀ a, (![0, 3712] : Fin 2 → Nat) a + S128x128.size a ≤ S128x4096.size a
  inb_S128x32_S128x1_0_29 : ∀ a, (![0, 29] : Fin 2 → Nat) a + S128x1.size a ≤ S128x32.size a
  inb_S128x4096_S128x128_0_3840 : ∀ a, (![0, 3840] : Fin 2 → Nat) a + S128x128.size a ≤ S128x4096.size a
  inb_S128x32_S128x1_0_30 : ∀ a, (![0, 30] : Fin 2 → Nat) a + S128x1.size a ≤ S128x32.size a
  inb_S128x4096_S128x128_0_3968 : ∀ a, (![0, 3968] : Fin 2 → Nat) a + S128x128.size a ≤ S128x4096.size a
  inb_S128x32_S128x1_0_31 : ∀ a, (![0, 31] : Fin 2 → Nat) a + S128x1.size a ≤ S128x32.size a
  inb_S1024x4096_S1024x1024_0_3072 : ∀ a, (![0, 3072] : Fin 2 → Nat) a + S1024x1024.size a ≤ S1024x4096.size a
  shapeCasts_S8192x4096_S4x2048x4096 : S8192x4096.ShapeCasts S4x2048x4096
  dot_S1024x1024_S128x1024_S1024x128_1_1_0_0_n_n_wf : DotDims.WF S1024x1024 S128x1024 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .i32 = 32 ∨ (Rect.block (s := S4096x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S4096x32.size a
  hwx0_2 : ∀ i : grid0.Coords, EltTy.bits .f32 = 32 ∨ (Rect.block (s := S4096x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S4096x32.size a
  hwx0_3 : ∀ i : grid0.Coords, EltTy.bits .f32 = 32 ∨ (Rect.block (s := S4096x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x4096.size a
  hwx0_4 : ∀ i : grid0.Coords, EltTy.bits .f32 = 32 ∨ (Rect.block (s := S8192x4096) S1024x128.size (cc0_transform_4 i) (hinb0_4 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S4096x32x128 : Shape := ⟨3, ![4096, 32, 128]⟩
abbrev S4096x32x1 : Shape := ⟨3, ![4096, 32, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096x32x128, .i32⟩
  | .hbm, ⟨5, _⟩ => ⟨S4096x32x128, .f32⟩
  | .hbm, ⟨6, _⟩ => ⟨S4096x32x1, .f32⟩
  | .hbm, ⟨7, _⟩ => ⟨S4096x32x128, .f32⟩
  | .hbm, ⟨8, _⟩ => ⟨S4096x32x128, .f32⟩
  | .hbm, ⟨9, _⟩ => ⟨S4096x32x1, .f32⟩
  | .hbm, ⟨10, _⟩ => ⟨S4096x32x128, .f32⟩
  | .hbm, ⟨11, _⟩ => ⟨S4096x32x128, .f32⟩
  | .hbm, ⟨12, _⟩ => ⟨S4096x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The common value of the two programs, as one function of the argument arrays.

  Both programs compute a linear layer whose weight matrix is stored as integer codes with one scale and one
  offset per group of 128 consecutive input features:
      w[o, i]      = q[o, i] · scale[o, i / 128] − offset[o, i / 128]
      out[b, s, o] = ∑ i < 4096, x[b, s, i] · w[o, i]
  over the extended reals.  The kernel adds the 4096 products in four runs of 1024; addition of extended reals is
  associative and commutative (also at the infinities), so that is the same sum.
-/
import Idealize.ShloMosaic.PureOps.Ideal
import Idealize.ShloMosaic.PureOps.Ideal.Laws
import Idealize.ShloMosaic.Lib.ValueIdx

noncomputable section

namespace Cert.QuantLinear

open Idealize.ShloMosaic Idealize.ShloMosaic.ValueIdx

/-- The dequantised weight of output feature `n` (a row of the code matrix; `R` rows in all) at input feature `j`:
    the code as a real number, times the scale of `j`'s group of 128, minus that group's offset. -/
def weight {R : Nat} (q : (⟨2, ![R, 4096]⟩ : Shape).Idx → Elt Ideal .i32) (s o : (⟨2, ![R, 32]⟩ : Shape).Idx → Elt Ideal .f32)
    (n : Fin R) (j : Fin 4096) : EReal :=
  (FloatOps.sitofp (F := Ideal) .f32 (q (ix2 n j)) : Ideal .f32) * s (ix2 n ⟨j.val / 128, by have := j.isLt; omega⟩)
    - o (ix2 n ⟨j.val / 128, by have := j.isLt; omega⟩)

theorem weight_congr {R : Nat} (q : (⟨2, ![R, 4096]⟩ : Shape).Idx → Elt Ideal .i32) (s o : (⟨2, ![R, 32]⟩ : Shape).Idx → Elt Ideal .f32)
    {n n' : Fin R} {j j' : Fin 4096} (hn : n = n') (hj : j = j') : weight q s o n j = weight q s o n' j' := by
  rw [hn, hj]

/-- The layer's result: entry (b, s, o) is the inner product of x[b, s, ·] with the dequantised row o. -/
def linear (x : (⟨3, ![4, 2048, 4096]⟩ : Shape).Idx → Elt Ideal .f32) (q : (⟨2, ![4096, 4096]⟩ : Shape).Idx → Elt Ideal .i32)
    (s o : (⟨2, ![4096, 32]⟩ : Shape).Idx → Elt Ideal .f32) : (⟨3, ![4, 2048, 4096]⟩ : Shape).Idx → Elt Ideal .f32 :=
  fun i => ∑ j : Fin 4096, x (ix3 (i 0) (i 1) j) * weight q s o (i 2) j

/-- A sum over 4096 terms is the sum of its four consecutive runs of 1024, added in order: in a commutative monoid,
    so also for extended reals, no finiteness asked. -/
theorem sum_four_runs {M : Type*} [AddCommMonoid M] (f : Fin 4096 → M) :
    ∑ j : Fin 4096, f j
      = (((∑ k : Fin 1024, f ⟨k.val, by have := k.isLt; omega⟩) + ∑ k : Fin 1024, f ⟨1024 + k.val, by have := k.isLt; omega⟩)
          + ∑ k : Fin 1024, f ⟨2048 + k.val, by have := k.isLt; omega⟩) + ∑ k : Fin 1024, f ⟨3072 + k.val, by have := k.isLt; omega⟩ := by
  have e : ∑ j : Fin 4096, f j = ∑ p : Fin 4 × Fin 1024, f ⟨p.2.val + 1024 * p.1.val, by have := p.1.isLt; have := p.2.isLt; omega⟩ :=
    (Fintype.sum_equiv (finProdFinEquiv (m := 4) (n := 1024)) (fun p => f ⟨p.2.val + 1024 * p.1.val, by have := p.1.isLt; have := p.2.isLt; omega⟩) f
      (fun p => rfl)).symm
  rw [e, Fintype.sum_prod_type, Fin.sum_univ_four]
  refine congrArg₂ (· + ·) (congrArg₂ (· + ·) (congrArg₂ (· + ·) ?_ ?_) ?_) ?_ <;>
    exact Finset.sum_congr rfl fun k _ => congrArg f (Fin.ext (by simp <;> omega))

end Cert.QuantLinear

end
-- ==== Proof.Tile.lean ====
/-
  The kernel body's arithmetic, read at one entry, over the extended reals.

  One grid point holds a block of 1024 rows of x, a block of 128 rows of the integer codes q with their 32 scales
  and offsets per row, and computes a 1024 × 128 tile of the result in four steps of 1024 input features. In each
  step the body first fills a 128 × 1024 scratch with the dequantised weights, eight groups of 128 columns,
      w[n, 128·g + l] = q[n, ·] · scale[n, g] − offset[n, g],
  and then adds to the running tile the product of the step's 1024 columns of x with that scratch:
      tile[r, n] ← tile[r, n] + ∑ k < 1024, x[r, k] · w[n, k].
  The format changes (f32 → bf16) are the identity on the extended reals, and a product into a zero accumulator
  is the plain sum.  This module states each of these pieces at an entry (r, n).
-/
import proofs.«149110_j7404523618310_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«149110_j7404523618310_1_alg».proof.Proof.Spec

noncomputable section

namespace Cert.KernelIdeal.Tile

open Idealize.ShloMosaic Idealize.ShloMosaic.ValueIdx Idealize.SL.Sem
open Cert.KernelIdeal Cert.KernelIdeal.Gen

/-! ## One group of dequantised weights -/

/-- A per-row column broadcast along the 128 lanes of a group reads the row's one entry. -/
theorem bcast_col (s : Vec Ideal S128x1 .f32) (n l : Fin 128) :
    broadcastTo S128x128 s broadcasts_S128x1_S128x128 (ix2 n l) = s (ix2 n (0 : Fin 1)) :=
  broadcastTo_apply s broadcasts_S128x1_S128x128 (ix2 n l) (ix2 n (0 : Fin 1)) (fun a => match a with
    | ⟨0, _⟩ => by show n.val = if (128 : Nat) = 1 then 0 else n.val; rw [if_neg (by decide)]
    | ⟨1, _⟩ => by show 0 = if (1 : Nat) = 1 then 0 else l.val; rw [if_pos rfl])

/-- A group's dequantised weight at row n, lane l: the code times the row's scale, minus the row's offset. -/
theorem group_apply (q : Vec Ideal S128x128 .i32) (s o : Vec Ideal S128x1 .f32) (n l : Fin 128) :
    k0_pay2 (F := Ideal) q s o (ix2 n l)
      = (FloatOps.sitofp .f32 (q (ix2 n l)) : Ideal .f32) * s (ix2 n (0 : Fin 1)) - o (ix2 n (0 : Fin 1)) := by
  unfold k0_pay2
  simp only [shapeCast_self]
  show (FloatOps.sitofp .f32 (q (ix2 n l)) : Ideal .f32) * broadcastTo S128x128 s broadcasts_S128x1_S128x128 (ix2 n l)
      - broadcastTo S128x128 o broadcasts_S128x1_S128x128 (ix2 n l) = _
  rw [bcast_col, bcast_col]

/-! ## The body writes the same group function under several names

Where a group's statements straddle a cut of the body the function is split in two or three; each composition is
the one function of the group's codes, scales and offsets. -/

variable {F : FTy → Type} [FloatOps F]

theorem pay3_eq : k0_pay3 (F := F) = k0_pay2 := rfl
theorem pay6_eq : k0_pay6 (F := F) = k0_pay2 := rfl
theorem pay7_eq : k0_pay7 (F := F) = k0_pay2 := rfl
theorem pay10_eq : k0_pay10 (F := F) = k0_pay2 := rfl
theorem pay11_eq : k0_pay11 (F := F) = k0_pay2 := rfl
theorem pay13_eq : k0_pay13 (F := F) = k0_pay2 := rfl
theorem pay14_eq : k0_pay14 (F := F) = k0_pay2 := rfl
theorem pay15_eq : k0_pay15 (F := F) = k0_pay2 := rfl
theorem pay16_eq : k0_pay16 (F := F) = k0_pay2 := rfl
theorem pay19_eq : k0_pay19 (F := F) = k0_pay2 := rfl
theorem pay20_eq : k0_pay20 (F := F) = k0_pay2 := rfl
theorem pay24_eq : k0_pay24 (F := F) = k0_pay2 := rfl
theorem pay28_eq : k0_pay28 (F := F) = k0_pay2 := rfl
theorem pay29_eq : k0_pay29 (F := F) = k0_pay2 := rfl
theorem pay32_eq : k0_pay32 (F := F) = k0_pay2 := rfl
theorem pay33_eq : k0_pay33 (F := F) = k0_pay2 := rfl
theorem pay37_eq : k0_pay37 (F := F) = k0_pay2 := rfl
theorem pay40_eq : k0_pay40 (F := F) = k0_pay2 := rfl
theorem pay41_eq : k0_pay41 (F := F) = k0_pay2 := rfl
theorem pay42_eq : k0_pay42 (F := F) = k0_pay2 := rfl
theorem pay43_eq : k0_pay43 (F := F) = k0_pay2 := rfl
theorem pay44_eq : k0_pay44 (F := F) = k0_pay2 := rfl
theorem pay45_eq : k0_pay45 (F := F) = k0_pay2 := rfl
theorem pay5_eq (q : Vec F S128x128 .i32) (s o : Vec F S128x1 .f32) : k0_pay5 (k0_pay4 q) s o = k0_pay2 q s o := rfl
theorem pay9_eq (q : Vec F S128x128 .i32) (s o : Vec F S128x1 .f32) : k0_pay9 (k0_pay8 q) s o = k0_pay2 q s o := rfl
theorem pay31_eq (q : Vec F S128x128 .i32) (s o : Vec F S128x1 .f32) : k0_pay31 (k0_pay30 q) s o = k0_pay2 q s o := rfl
theorem pay35_eq (q : Vec F S128x128 .i32) (s o : Vec F S128x1 .f32) : k0_pay35 (k0_pay34 q) s o = k0_pay2 q s o := rfl
theorem pay39_eq (q : Vec F S128x128 .i32) (s o : Vec F S128x1 .f32) : k0_pay39 (k0_pay38 q) s o = k0_pay2 q s o := rfl
theorem pay18_eq (q : Vec F S128x128 .i32) (s o : Vec F S128x1 .f32) : k0_pay18 (k0_pay17 q s o) = k0_pay2 q s o := rfl
theorem pay22_eq (q : Vec F S128x128 .i32) (s o : Vec F S128x1 .f32) : k0_pay22 (k0_pay21 q s o) = k0_pay2 q s o := rfl
theorem pay27_eq (q : Vec F S128x128 .i32) (s o : Vec F S128x1 .f32) : k0_pay27 (k0_pay25 q s) (k0_pay26 o) = k0_pay2 q s o := rfl

/-- The four accumulation steps are one function of the step's columns of x, the running tile and the scratch. -/
theorem pay23_eq : k0_pay23 (F := F) = k0_pay12 := rfl
theorem pay36_eq : k0_pay36 (F := F) = k0_pay12 := rfl
theorem pay46_eq : k0_pay46 (F := F) = k0_pay12 := rfl

/-! ## One accumulation step -/

/-- The tile starts at zero. -/
theorem zero_apply (j : S1024x128.Idx) : k0_pay1 (F := Ideal) j = 0 := by
  unfold k0_pay1
  simp only [shapeCast_self]
  exact Ideal.ofBits_zero_f32

/-- Of the product's output entry (r, n), the left operand is read on row r; -/
theorem lhs_row (i : S1024x128.Idx) (q : dot_S1024x1024_S128x1024_S1024x128_1_1_0_0_n_n.contr.Idx) : (dot_S1024x1024_S128x1024_S1024x128_1_1_0_0_n_n.lhsIdx i q 0).val = (i 0).val := by
  unfold DotDims.lhsIdx
  rw [dif_neg (show ¬(0 : Fin S1024x1024.rank) ∈ dot_S1024x1024_S128x1024_S1024x128_1_1_0_0_n_n.lhsBatch by decide), dif_pos (show (0 : Fin S1024x1024.rank) ∈ dot_S1024x1024_S128x1024_S1024x128_1_1_0_0_n_n.lhsNonContracting by decide)]
  rfl
/-- the right operand on row n. -/
theorem rhs_row (i : S1024x128.Idx) (q : dot_S1024x1024_S128x1024_S1024x128_1_1_0_0_n_n.contr.Idx) : (dot_S1024x1024_S128x1024_S1024x128_1_1_0_0_n_n.rhsIdx i q 0).val = (i 1).val := by
  unfold DotDims.rhsIdx
  rw [dif_neg (show ¬(0 : Fin S128x1024.rank) ∈ dot_S1024x1024_S128x1024_S1024x128_1_1_0_0_n_n.rhsBatch by decide), dif_pos (show (0 : Fin S128x1024.rank) ∈ dot_S1024x1024_S128x1024_S1024x128_1_1_0_0_n_n.rhsNonContracting by decide)]
  rfl

/-- One step adds, at entry (r, n), the sum over the step's 1024 features of x[r, k] · w[n, k]: the product
    contracts the second axis of both operands, into a zero accumulator, and the narrowing of x is the identity. -/
theorem step_apply (xs : Vec Ideal S1024x1024 .f32) (acc : Vec Ideal S1024x128 .f32) (w : Vec Ideal S128x1024 .bf16)
    (r : Fin 1024) (n : Fin 128) :
    k0_pay12 (F := Ideal) xs acc w (ix2 r n) = acc (ix2 r n) + ∑ k : Fin 1024, xs (ix2 r k) * w (ix2 n k) := by
  unfold k0_pay12
  simp only [shapeCast_self]
  show acc (ix2 r n) + FloatOps.matmul (F := Ideal) dot_S1024x1024_S128x1024_S1024x128_1_1_0_0_n_n none (truncf (F := Ideal) .bf16 xs bitsLt_bf16_f32) w (constant (F := Ideal) S1024x128 .f32 0x00000000#32) (ix2 r n) = _
  rw [Ideal.matmul_constant_zero_apply, ← Equiv.sum_comp (ValueIdx.contrEquiv1 dot_S1024x1024_S128x1024_S1024x128_1_1_0_0_n_n 1024 rfl rfl).symm]
  refine congrArg (acc (ix2 r n) + ·) (Finset.sum_congr rfl fun k _ => ?_)
  have hk := ValueIdx.contrEquiv1_symm_val dot_S1024x1024_S128x1024_S1024x128_1_1_0_0_n_n 1024 rfl rfl k
  have el : dot_S1024x1024_S128x1024_S1024x128_1_1_0_0_n_n.lhsIdx (ix2 r n) ((ValueIdx.contrEquiv1 dot_S1024x1024_S128x1024_S1024x128_1_1_0_0_n_n 1024 rfl rfl).symm k) = ix2 r k := funext fun a => Fin.ext (by
    match a with
    | ⟨0, _⟩ => exact lhs_row _ _
    | ⟨1, _⟩ => exact (dot_S1024x1024_S128x1024_S1024x128_1_1_0_0_n_n.lhsIdx_val_of_single rfl _ _).trans hk)
  have er : dot_S1024x1024_S128x1024_S1024x128_1_1_0_0_n_n.rhsIdx (ix2 r n) ((ValueIdx.contrEquiv1 dot_S1024x1024_S128x1024_S1024x128_1_1_0_0_n_n 1024 rfl rfl).symm k) = ix2 n k := funext fun a => Fin.ext (by
    match a with
    | ⟨0, _⟩ => exact rhs_row _ _
    | ⟨1, _⟩ => exact (dot_S1024x1024_S128x1024_S1024x128_1_1_0_0_n_n.rhsIdx_val_of_single rfl _ _).trans hk)
  rw [el, er]
  rfl

/-! ## The four steps -/

/-- From the zero tile, four steps whose operands read `x` and `w` on the four consecutive runs of 1024 features
    leave at entry (r, n) the whole inner product `∑ j < 4096, x j · w j`. -/
theorem steps_apply (X0 X1 X2 X3 : Vec Ideal S1024x1024 .f32) (W0 W1 W2 W3 : Vec Ideal S128x1024 .bf16)
    (r : Fin 1024) (n : Fin 128) (x w : Fin 4096 → EReal)
    (hX0 : ∀ k : Fin 1024, X0 (ix2 r k) = x ⟨k.val, by have := k.isLt; omega⟩) (hX1 : ∀ k : Fin 1024, X1 (ix2 r k) = x ⟨1024 + k.val, by have := k.isLt; omega⟩)
    (hX2 : ∀ k : Fin 1024, X2 (ix2 r k) = x ⟨2048 + k.val, by have := k.isLt; omega⟩) (hX3 : ∀ k : Fin 1024, X3 (ix2 r k) = x ⟨3072 + k.val, by have := k.isLt; omega⟩)
    (hW0 : ∀ k : Fin 1024, W0 (ix2 n k) = w ⟨k.val, by have := k.isLt; omega⟩) (hW1 : ∀ k : Fin 1024, W1 (ix2 n k) = w ⟨1024 + k.val, by have := k.isLt; omega⟩)
    (hW2 : ∀ k : Fin 1024, W2 (ix2 n k) = w ⟨2048 + k.val, by have := k.isLt; omega⟩) (hW3 : ∀ k : Fin 1024, W3 (ix2 n k) = w ⟨3072 + k.val, by have := k.isLt; omega⟩) :
    k0_pay46 (F := Ideal) X3 (k0_pay36 (F := Ideal) X2 (k0_pay23 (F := Ideal) X1 (k0_pay12 (F := Ideal) X0 (k0_pay1 (F := Ideal)) W0) W1) W2) W3 (ix2 r n)
      = ∑ j : Fin 4096, x j * w j := by
  rw [pay46_eq, pay36_eq, pay23_eq, step_apply, step_apply, step_apply, step_apply, zero_apply, zero_add,
    Cert.QuantLinear.sum_four_runs (fun j => x j * w j)]
  simp only [hX0, hX1, hX2, hX3, hW0, hW1, hW2, hW3]

end Cert.KernelIdeal.Tile

end
-- ==== Proof.LibCanon.lean ====
/-
  Reading what a list of stores leaves, piece by piece.

  `View.canon L` is the contents a list of unmasked stores `L` (last store first) leaves: at each index the payload
  of the first piece whose rectangle holds it.  To show that these contents are a given function `f` at an index
  `y` it is enough to walk the list from its head: each piece met agrees with `f` on its own rectangle, and the
  walk may stop at the first piece that holds `y` — the pieces behind it, overwritten there, are never looked at.
-/
import Idealize.ShloMosaic.Lib.Pipeline.FrameBody
import Idealize.ShloMosaic.Lib.Pipeline.Value

noncomputable section

namespace Idealize.ShloMosaic.View

variable {Val : EltTy → Type} [∀ e, Nonempty (Val e)] {s : Shape} {e : EltTy}

/-- One step of the walk: the last store agrees with `f` wherever it wrote, and IF `y` lies off its rectangle
    the earlier stores leave `f y` there; then the whole list leaves `f y`. -/
theorem canon_cons_agree (r : Rect s) (w : r.shape.Idx → Val e) (L : List (Piece Val s e)) (f : s.Idx → Val e) (y : s.Idx)
    (hw : ∀ x, w x = f (r.emb x)) (hrest : y ∉ r.set → canon L y = f y) : canon (⟨r, w⟩ :: L) y = f y := by
  by_cases hy : y ∈ r.set
  · obtain ⟨x, rfl⟩ : ∃ x, r.emb x = y := r.exists_idx_of_mem hy
    rw [canon_cons_emb]; exact hw x
  · rw [canon_cons_of_not_mem ⟨r, w⟩ L hy]; exact hrest hy

/-- A load of the whole buffer after stores `L` reads what they leave. -/
theorem readCov_whole_eq_canon {sig : RefSig} {κ : Kind} {sp : Space} (v : View sig κ sp s e) (L : List (Piece Val s e))
    {off : Fin s.rank → Nat} (h : off = fun _ => 0) (inb : ∀ a, off a + s.size a ≤ s.size a) :
    v.readCov L (Rect.unit off s.size inb).toLoadRect = canon L :=
  (readCov_eq_canon' v L _).trans (ld_unit_zero (S := s) h inb (canon L))

end Idealize.ShloMosaic.View

end
-- ==== Proof.TileRun.lean ====
/-
  What one grid point leaves in the output tile.

  The body's last store copies the running tile into the output block; the running tile is what four accumulation
  steps left, and each step read the weight scratch that eight group stores had just filled.  Read at entry (r, n)
  of the 1024 × 128 tile this is
      ∑ j < 4096, x[r, j] · (q[n, j] · scale[n, j / 128] − offset[n, j / 128])
  over the point's blocks of x, q, scale and offset.
-/
import proofs.«149110_j7404523618310_1_alg».proof.Proof.Gen.KernelIdeal.Frame
import proofs.«149110_j7404523618310_1_alg».proof.Proof.Tile
import proofs.«149110_j7404523618310_1_alg».proof.Proof.LibCanon
import proofs.«149110_j7404523618310_1_alg».proof.Proof.Spec
import Idealize.ShloMosaic.Lib.Tactic

set_option maxRecDepth 16384

noncomputable section

namespace Cert.KernelIdeal.Tile

open Idealize.ShloMosaic Idealize.ShloMosaic.ValueIdx Idealize.ShloMosaic.TcCoe Idealize.SL.Sem
open Cert.KernelIdeal Cert.KernelIdeal.Gen Cert.QuantLinear

theorem hz : (![0, 0] : Fin 2 → Nat) = fun _ => 0 := funext fun a => by fin_cases a <;> rfl

/-- The weights a step's scratch must hold: at (n, k) the dequantised weight of row n at feature `base + k`. -/
abbrev runW (x1 : Vec Ideal S128x4096 .i32) (x2 x3 : Vec Ideal S128x32 .f32) (base : Nat) (hb : base + 1024 ≤ 4096)
    (y : S128x1024.Idx) : EReal :=
  weight x1 x2 x3 (y 0) ⟨base + (y 1).val, by have := idx2_lt1 y; omega⟩

/-- One group store agrees with them on its 128 columns: the store at scratch columns `o8 ..` holds the group function
    of the codes at columns `o1 = base + o8 ..` and of scale and offset column `o2 = o1 / 128`. -/
theorem group_piece (x1 : Vec Ideal S128x4096 .i32) (x2 x3 : Vec Ideal S128x32 .f32) (base : Nat) (hb : base + 1024 ≤ 4096)
    (o1 o2 o8 : Nat)
    (inb1 : ∀ a, (![0, o1] : Fin 2 → Nat) a + S128x128.size a ≤ S128x4096.size a)
    (inb2 : ∀ a, (![0, o2] : Fin 2 → Nat) a + S128x1.size a ≤ S128x32.size a)
    (inb8 : ∀ a, (![0, o8] : Fin 2 → Nat) a + S128x128.size a ≤ S128x1024.size a)
    (h1 : o1 = base + o8) (h2 : o1 = 128 * o2) (x : S128x128.Idx) :
    k0_pay2 (F := Ideal) (View.ld x1 (Rect.unit ![0, o1] S128x128.size inb1)) (View.ld x2 (Rect.unit ![0, o2] S128x1.size inb2))
        (View.ld x3 (Rect.unit ![0, o2] S128x1.size inb2)) x
      = runW x1 x2 x3 base hb ((Rect.unit (s := S128x1024) ![0, o8] S128x128.size inb8).emb x) := by
  obtain ⟨n, l, rfl⟩ : ∃ (n l : Fin 128), x = ix2 n l := ⟨x 0, x 1, eq_ix2 x⟩
  rw [group_apply]
  have e1 : (Rect.unit (s := S128x4096) ![0, o1] S128x128.size inb1).idx (ix2 n l)
      = ix2 ((Rect.unit (s := S128x1024) ![0, o8] S128x128.size inb8).emb (ix2 n l) 0)
          (⟨base + ((Rect.unit (s := S128x1024) ![0, o8] S128x128.size inb8).emb (ix2 n l) 1).val,
            by have := idx2_lt1 ((Rect.unit (s := S128x1024) ![0, o8] S128x128.size inb8).emb (ix2 n l)); omega⟩ : Fin 4096) :=
    funext fun a => Fin.ext (by
      match a with
      | ⟨0, _⟩ => rfl
      | ⟨1, _⟩ => show o1 + 1 * l.val = base + (o8 + 1 * l.val); omega)
  have e2 : (Rect.unit (s := S128x32) ![0, o2] S128x1.size inb2).idx (ix2 n (0 : Fin 1))
      = ix2 ((Rect.unit (s := S128x1024) ![0, o8] S128x128.size inb8).emb (ix2 n l) 0)
          (⟨(base + ((Rect.unit (s := S128x1024) ![0, o8] S128x128.size inb8).emb (ix2 n l) 1).val) / 128,
            by have := idx2_lt1 ((Rect.unit (s := S128x1024) ![0, o8] S128x128.size inb8).emb (ix2 n l)); omega⟩ : Fin 32) :=
    funext fun a => Fin.ext (by
      match a with
      | ⟨0, _⟩ => rfl
      | ⟨1, _⟩ => show o2 + 1 * 0 = (base + (o8 + 1 * l.val)) / 128; have := l.isLt; omega)
  show (FloatOps.sitofp .f32 (x1 ((Rect.unit (s := S128x4096) ![0, o1] S128x128.size inb1).idx (ix2 n l))) : Ideal .f32)
      * x2 ((Rect.unit (s := S128x32) ![0, o2] S128x1.size inb2).idx (ix2 n (0 : Fin 1)))
      - x3 ((Rect.unit (s := S128x32) ![0, o2] S128x1.size inb2).idx (ix2 n (0 : Fin 1))) = _
  rw [e1, e2]
  rfl

/-- An entry (n, k) of the scratch that lies off a group's 128 columns has k outside them. -/
theorem off_cols (n : Fin 128) (k : Fin 1024) (o : Nat) (inb : ∀ a, (![0, o] : Fin 2 → Nat) a + S128x128.size a ≤ S128x1024.size a)
    (h : (ix2 n k : S128x1024.Idx) ∉ (Rect.unit (s := S128x1024) ![0, o] S128x128.size inb).set) : ¬(o ≤ k.val ∧ k.val < o + 128) := by
  intro hc
  refine h (Rect.mem_set_unit.mpr fun a => ?_)
  match a with
  | ⟨0, _⟩ => exact ⟨Nat.zero_le _, by show n.val < 0 + 128; have := n.isLt; omega⟩
  | ⟨1, _⟩ => exact hc

/-- A step's 1024 columns of the block of x, read at (r, k), are the block at column `B + k`. -/
theorem ld_cols (x0 : Vec Ideal S1024x4096 .f32) (B : Nat) (inb : ∀ a, (![0, B] : Fin 2 → Nat) a + S1024x1024.size a ≤ S1024x4096.size a)
    (r k : Fin 1024) (j : Fin 4096) (hj : j.val = B + k.val) :
    View.ld x0 (Rect.unit ![0, B] S1024x1024.size inb) (ix2 r k) = x0 (ix2 r j) :=
  congrArg x0 (funext fun a => Fin.ext (by
    match a with
    | ⟨0, _⟩ => show 0 + 1 * r.val = r.val; omega
    | ⟨1, _⟩ => show B + 1 * k.val = j.val; omega))

theorem tile_apply (c : Dev nD) (i : grid0.Coords) (arg2 : Memref sig .tc .vmem S1024x4096 .f32) (harg2 : arg2.IsWhole) (arg3 : Memref sig .tc .vmem S128x4096 .i32) (harg3 : arg3.IsWhole) (arg4 : Memref sig .tc .vmem S128x32 .f32) (harg4 : arg4.IsWhole) (arg5 : Memref sig .tc .vmem S128x32 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x1024 .bf16) (harg8 : arg8.IsWhole)
    (x0 : Vec Ideal S1024x4096 .f32) (x1 : Vec Ideal S128x4096 .i32) (x2 : Vec Ideal S128x32 .f32) (x3 : Vec Ideal S128x32 .f32)
    (r : Fin 1024) (n : Fin 128) :
    out0_A_4 (F := Ideal) c i arg2 harg2 arg3 harg3 arg4 harg4 arg5 harg5 arg6 harg6 arg7 harg7 arg8 harg8 x0 x1 x2 x3 (ix2 r n) = ∑ j : Fin 4096, x0 (ix2 r j) * weight x1 x2 x3 n j := by
  unfold out0_A_4
  rw [View.read_writes_eq_canon _ _ _ (cover0_A_4 c i arg2 harg2 arg3 harg3 arg4 harg4 arg5 harg5 arg6 harg6 arg7 harg7 arg8 harg8 x0 x1 x2 x3)]
  unfold kernelRun0_A
  dsimp only
  sl_unfold_words
  rw [View.canon_unit_zero hz]
  simp only [View.readCov_cons_toLoadRect]
  simp only [View.readAt_eq_ld, harg2.read_unread, harg3.read_unread, harg4.read_unread, harg5.read_unread,
    pay3_eq, pay6_eq, pay7_eq, pay10_eq, pay11_eq, pay13_eq, pay14_eq, pay15_eq, pay16_eq, pay19_eq, pay20_eq, pay24_eq, pay28_eq, pay29_eq, pay32_eq, pay33_eq, pay37_eq, pay40_eq, pay41_eq, pay42_eq, pay43_eq, pay44_eq, pay45_eq, pay5_eq, pay9_eq, pay31_eq, pay35_eq, pay39_eq, pay18_eq, pay22_eq, pay27_eq]
  refine steps_apply _ _ _ _ _ _ _ _ r n (fun j => x0 (ix2 r j)) (fun j => weight x1 x2 x3 n j) ?_ ?_ ?_ ?_ ?_ ?_ ?_ ?_
  · exact fun k => ld_cols x0 _ _ r k _ (Nat.zero_add _).symm
  · exact fun k => ld_cols x0 _ _ r k _ rfl
  · exact fun k => ld_cols x0 _ _ r k _ rfl
  · exact fun k => ld_cols x0 _ _ r k _ rfl
  · intro k
    rw [View.readCov_whole_eq_canon _ _ hz]
    have hb : 0 + 1024 ≤ 4096 := by omega
    refine (?_ : _ = runW x1 x2 x3 0 hb (ix2 n k)).trans (weight_congr x1 x2 x3 rfl (Fin.ext (Nat.zero_add _)))
    iterate 8 (refine View.canon_cons_agree (Val := Elt Ideal) (s := S128x1024) (e := .bf16) _ _ _ (runW x1 x2 x3 0 hb) (ix2 n k) ?_ (fun h => ?_); (refine group_piece x1 x2 x3 0 hb _ _ _ _ _ _ ?_ ?_ <;> decide); have := off_cols n k _ _ h; clear h)
    exfalso; have := k.isLt; omega
  · intro k
    rw [View.readCov_whole_eq_canon _ _ hz]
    have hb : 1024 + 1024 ≤ 4096 := by omega
    refine (?_ : _ = runW x1 x2 x3 1024 hb (ix2 n k)).trans rfl
    iterate 8 (refine View.canon_cons_agree (Val := Elt Ideal) (s := S128x1024) (e := .bf16) _ _ _ (runW x1 x2 x3 1024 hb) (ix2 n k) ?_ (fun h => ?_); (refine group_piece x1 x2 x3 1024 hb _ _ _ _ _ _ ?_ ?_ <;> decide); have := off_cols n k _ _ h; clear h)
    exfalso; have := k.isLt; omega
  · intro k
    rw [View.readCov_whole_eq_canon _ _ hz]
    have hb : 2048 + 1024 ≤ 4096 := by omega
    refine (?_ : _ = runW x1 x2 x3 2048 hb (ix2 n k)).trans rfl
    iterate 8 (refine View.canon_cons_agree (Val := Elt Ideal) (s := S128x1024) (e := .bf16) _ _ _ (runW x1 x2 x3 2048 hb) (ix2 n k) ?_ (fun h => ?_); (refine group_piece x1 x2 x3 2048 hb _ _ _ _ _ _ ?_ ?_ <;> decide); have := off_cols n k _ _ h; clear h)
    exfalso; have := k.isLt; omega
  · intro k
    rw [View.readCov_whole_eq_canon _ _ hz]
    have hb : 3072 + 1024 ≤ 4096 := by omega
    refine (?_ : _ = runW x1 x2 x3 3072 hb (ix2 n k)).trans rfl
    iterate 8 (refine View.canon_cons_agree (Val := Elt Ideal) (s := S128x1024) (e := .bf16) _ _ _ (runW x1 x2 x3 3072 hb) (ix2 n k) ?_ (fun h => ?_); (refine group_piece x1 x2 x3 3072 hb _ _ _ _ _ _ ?_ ?_ <;> decide); have := off_cols n k _ _ h; clear h)
    exfalso; have := k.isLt; omega

end Cert.KernelIdeal.Tile

end
-- ==== Proof.Blocks.lean ====
/-
  From the grid's blocks to the whole result array.

  The grid has 8 × 32 points; point t = 32·a + b works on rows 1024·a .. 1024·a + 1023 of the flattened x (8192 rows)
  and on rows 128·b .. 128·b + 127 of the codes, scales and offsets, and writes back block (a, b) of the
  8192 × 4096 result.  A point's tile, read where its block sits in the array, is the same inner product taken over
  the whole arrays; every entry of the result lies in exactly the block of point 32·⌊i₀/1024⌋ + ⌊i₁/128⌋; so after the
  run the array is, entry by entry,
      out[i₀, i₁] = ∑ j < 4096, X[i₀, j] · w[i₁, j].
-/
import proofs.«149110_j7404523618310_1_alg».proof.Proof.Gen.KernelIdeal.Frame
import proofs.«149110_j7404523618310_1_alg».proof.Proof.TileRun
import Idealize.ShloMosaic.Lib.Pipeline.Value

set_option maxRecDepth 16384

noncomputable section

namespace Cert.KernelIdeal.Tile

open Idealize.ShloMosaic Idealize.ShloMosaic.ValueIdx Idealize.ShloMosaic.TcCoe Idealize.SL.Sem
open Idealize.ShloMosaic.Pipeline (Dat)
open Cert.KernelIdeal Cert.KernelIdeal.Gen Cert.QuantLinear

variable (m : (ℓ : Loc nD τ sig) → Buf (Elt Ideal) ℓ) (ρ : Dev nD → PrngReg)

/-- The result on the flattened rows: entry (i₀, i₁) is the inner product of row i₀ of X with the dequantised row i₁. -/
def rowsOut (X : S8192x4096.Idx → Elt Ideal .f32) (q : S4096x4096.Idx → Elt Ideal .i32) (s o : S4096x32.Idx → Elt Ideal .f32) :
    S8192x4096.Idx → Elt Ideal .f32 :=
  fun i => ∑ j : Fin 4096, X (ix2 (i 0) j) * weight q s o (i 1) j

/-- The weight reads three entries; two triples of arrays that agree there give the same weight. -/
theorem weight_agree {R R' : Nat} (q : (⟨2, ![R, 4096]⟩ : Shape).Idx → Elt Ideal .i32) (s o : (⟨2, ![R, 32]⟩ : Shape).Idx → Elt Ideal .f32)
    (q' : (⟨2, ![R', 4096]⟩ : Shape).Idx → Elt Ideal .i32) (s' o' : (⟨2, ![R', 32]⟩ : Shape).Idx → Elt Ideal .f32)
    (n : Fin R) (n' : Fin R') (j : Fin 4096)
    (hq : q (ix2 n j) = q' (ix2 n' j))
    (hs : s (ix2 n (⟨j.val / 128, by have := j.isLt; omega⟩ : Fin 32)) = s' (ix2 n' (⟨j.val / 128, by have := j.isLt; omega⟩ : Fin 32)))
    (ho : o (ix2 n (⟨j.val / 128, by have := j.isLt; omega⟩ : Fin 32)) = o' (ix2 n' (⟨j.val / 128, by have := j.isLt; omega⟩ : Fin 32))) :
    weight q s o n j = weight q' s' o' n' j := by
  unfold weight
  rw [hq, hs, ho]

/-- The printed index maps, decided once over the 256 points: x moves with the point's row tile, the codes, scales
    and offsets with its column tile, each over its full width; the output block is (row tile, column tile). -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = t.val % 32 ∧ win0_3.index t (1 : Fin 2) = 0
    ∧ win0_4.index t (0 : Fin 2) = t.val / 32 ∧ win0_4.index t (1 : Fin 2) = t.val % 32 :=
  (by decide +kernel : ∀ t : Fin grid0.N, _)

/-- What point t writes back is block t of `rowsOut` of the arrays as the region finds them. -/
theorem flushed_eq (c : Dev nD) (t : Fin cfg0.N) :
    (dats m 0 c).flushed 4 t
      = ((cfg0.win 4).blk t).view.read (Elt Ideal) (rowsOut (V m c main_v0) (V m c main_arg1) (V m c main_arg2) (V m c main_arg3)) := by
  show (cfg0.win 4).cut (grid0.coords t) ((dats m 0 c).after 4 t) = _
  rw [after0_4]
  unfold outsAt0
  obtain ⟨a0, a1, b0, b1, c0, c1, d0, d1, o0, o1⟩ := idx_facts t
  funext j
  obtain ⟨r, n, rfl⟩ : ∃ (r : Fin 1024) (n : Fin 128), j = ix2 r n := ⟨j 0, j 1, eq_ix2 j⟩
  refine (tile_apply c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _)
    (iblk m c 0 t) (iblk m c 1 t) (iblk m c 2 t) (iblk m c 3 t) r n).trans ?_
  show _ = rowsOut (V m c main_v0) (V m c main_arg1) (V m c main_arg2) (V m c main_arg3) (((cfg0.win 4).blk t).view.emb (ix2 r n))
  unfold rowsOut
  refine Finset.sum_congr rfl fun j _ => ?_
  have hj : j.val < 4096 := j.isLt
  have h0 : ((cfg0.win 0).blk t).view.emb (ix2 r j) = ix2 ((((cfg0.win 4).blk t).view.emb (ix2 r n)) 0) j := by
    funext a; apply Fin.ext
    match a with
    | ⟨0, _⟩ => show win0_0.index t (0 : Fin 2) * 1024 + 1 * r.val = win0_4.index t (0 : Fin 2) * 1024 + 1 * r.val; omega
    | ⟨1, _⟩ => show win0_0.index t (1 : Fin 2) * 4096 + 1 * j.val = j.val; omega
  have h1 : ((cfg0.win 1).blk t).view.emb (ix2 n j) = ix2 ((((cfg0.win 4).blk t).view.emb (ix2 r n)) 1) j := by
    funext a; apply Fin.ext
    match a with
    | ⟨0, _⟩ => show win0_1.index t (0 : Fin 2) * 128 + 1 * n.val = win0_4.index t (1 : Fin 2) * 128 + 1 * n.val; omega
    | ⟨1, _⟩ => show win0_1.index t (1 : Fin 2) * 4096 + 1 * j.val = j.val; omega
  have h2 : ((cfg0.win 2).blk t).view.emb (ix2 n (⟨j.val / 128, by omega⟩ : Fin 32))
      = ix2 ((((cfg0.win 4).blk t).view.emb (ix2 r n)) 1) (⟨j.val / 128, by omega⟩ : Fin 32) := by
    funext a; apply Fin.ext
    match a with
    | ⟨0, _⟩ => show win0_2.index t (0 : Fin 2) * 128 + 1 * n.val = win0_4.index t (1 : Fin 2) * 128 + 1 * n.val; omega
    | ⟨1, _⟩ => show win0_2.index t (1 : Fin 2) * 32 + 1 * (j.val / 128) = j.val / 128; omega
  have h3 : ((cfg0.win 3).blk t).view.emb (ix2 n (⟨j.val / 128, by omega⟩ : Fin 32))
      = ix2 ((((cfg0.win 4).blk t).view.emb (ix2 r n)) 1) (⟨j.val / 128, by omega⟩ : Fin 32) := by
    funext a; apply Fin.ext
    match a with
    | ⟨0, _⟩ => show win0_3.index t (0 : Fin 2) * 128 + 1 * n.val = win0_4.index t (1 : Fin 2) * 128 + 1 * n.val; omega
    | ⟨1, _⟩ => show win0_3.index t (1 : Fin 2) * 32 + 1 * (j.val / 128) = j.val / 128; omega
  have hx : iblk m c 0 t (ix2 r j) = V m c main_v0 (ix2 ((((cfg0.win 4).blk t).view.emb (ix2 r n)) 0) j) := by
    show V m c main_v0 (((cfg0.win 0).blk t).view.emb (ix2 r j)) = _
    rw [h0]
    rfl
  have hq : iblk m c 1 t (ix2 n j) = V m c main_arg1 (ix2 ((((cfg0.win 4).blk t).view.emb (ix2 r n)) 1) j) := by
    show V m c main_arg1 (((cfg0.win 1).blk t).view.emb (ix2 n j)) = _
    rw [h1]
    rfl
  have hs : iblk m c 2 t (ix2 n (⟨j.val / 128, by omega⟩ : Fin 32))
      = V m c main_arg2 (ix2 ((((cfg0.win 4).blk t).view.emb (ix2 r n)) 1) (⟨j.val / 128, by omega⟩ : Fin 32)) := by
    show V m c main_arg2 (((cfg0.win 2).blk t).view.emb (ix2 n (⟨j.val / 128, by omega⟩ : Fin 32))) = _
    rw [h2]
    rfl
  have ho : iblk m c 3 t (ix2 n (⟨j.val / 128, by omega⟩ : Fin 32))
      = V m c main_arg3 (ix2 ((((cfg0.win 4).blk t).view.emb (ix2 r n)) 1) (⟨j.val / 128, by omega⟩ : Fin 32)) := by
    show V m c main_arg3 (((cfg0.win 3).blk t).view.emb (ix2 n (⟨j.val / 128, by omega⟩ : Fin 32))) = _
    rw [h3]
    rfl
  rw [hx, weight_agree (iblk m c 1 t) (iblk m c 2 t) (iblk m c 3 t) (V m c main_arg1) (V m c main_arg2) (V m c main_arg3)
    n ((((cfg0.win 4).blk t).view.emb (ix2 r n)) 1) j hq hs ho]

/-- An index of the result array is in point t's block iff each coordinate is in the block's range on its axis. -/
theorem mem_blk (t : Fin cfg0.N) (i : S8192x4096.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v1).slice (win0_4.rect t)).set ↔ _
  rw [View.set_slice_whole, Rect.mem_set_unit]
  exact Iff.rfl

/-- Every entry of the result is in some point's block: the point of its row tile and column tile. -/
theorem cover (i : S8192x4096.Idx) : ∃ t : Fin cfg0.N, (cfg0.win 4).flush t = true ∧ i ∈ ((cfg0.win 4).blk t).view.set := by
  have h0 : (i 0).val < 8192 := idx2_lt0 i
  have h1 : (i 1).val < 4096 := idx2_lt1 i
  have hN : cfg0.N = 256 := N_0
  obtain ⟨t, ht⟩ : ∃ t : Fin cfg0.N, t.val = (i 0).val / 1024 * 32 + (i 1).val / 128 :=
    ⟨⟨(i 0).val / 1024 * 32 + (i 1).val / 128, by rw [hN]; omega⟩, rfl⟩
  obtain ⟨a0, a1, b0, b1, c0, c1, d0, d1, o0, o1⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 128 ≤ (i 1).val ∧ (i 1).val < win0_4.index t (1 : Fin 2) * 128 + 128
    omega

/-- The result array after the run. -/
theorem final (c : Dev nD) :
    (dats m 0 c).arrAt 4 cfg0.N = rowsOut (V m c main_v0) (V m c main_arg1) (V m c main_arg2) (V m c main_arg3) :=
  (dats m 0 c).arrAt_eq_of_cover 4 _ (fun t _ => flushed_eq m c t) cover

end Cert.KernelIdeal.Tile

end
-- ==== Proof.Result.lean ====
/-
  The kernel program's result.

  Around the grid the program only re-lays arrays: before it, x (4, 2048, 4096) is flattened to 8192 rows; after it,
  the 8192 × 4096 array the grid filled is cut back to (4, 2048, 4096).  Row b·2048 + s of the flattened x is row
  (b, s) of x, so un-flattening the grid's array gives, at (b, s, o), ∑ j < 4096, x[b, s, j] · w[o, j]: the layer's
  result.
-/
import proofs.«149110_j7404523618310_1_alg».proof.Proof.Gen.KernelIdeal.Frame
import proofs.«149110_j7404523618310_1_alg».proof.Proof.Blocks
import Idealize.ShloMosaic.Lib.Pipeline.Value
import Idealize.ShloMosaic.Lib.StableHlo.Run
import Idealize.ShloMosaic.Lib.Tactic

set_option maxRecDepth 16384

noncomputable section

namespace Cert.KernelIdeal.Tile

open Idealize.ShloMosaic Idealize.ShloMosaic.ValueIdx Idealize.ShloMosaic.TcCoe Idealize.SL.Sem
open Idealize.ShloMosaic.Pipeline (Dat)
open Cert.KernelIdeal Cert.KernelIdeal.Gen Cert.QuantLinear

/-- Un-flattening the rows of `rowsOut` of the flattened x is the layer's result. -/
theorem unflatten_rowsOut (x : S4x2048x4096.Idx → Elt Ideal .f32) (q : S4096x4096.Idx → Elt Ideal .i32)
    (s o : S4096x32.Idx → Elt Ideal .f32) :
    shapeCast S4x2048x4096 (rowsOut (shapeCast S8192x4096 x shapeCasts_S4x2048x4096_S8192x4096) q s o) shapeCasts_S8192x4096_S4x2048x4096
      = linear x q s o := by
  funext i
  obtain ⟨b, t, u, rfl⟩ : ∃ (b : Fin 4) (t : Fin 2048) (u : Fin 4096), i = ix3 b t u := ⟨i 0, i 1, i 2, eq_ix3 i⟩
  have hb := b.isLt
  have ht := t.isLt
  rw [shapeCast_apply _ shapeCasts_S8192x4096_S4x2048x4096 (ix3 b t u) (ix2 (⟨b.val * 2048 + t.val, by omega⟩ : Fin 8192) u)
    (by rewrite [Shape.rowMajor_val_two, Shape.rowMajor_val_three]; rfl)]
  unfold rowsOut linear
  refine Finset.sum_congr rfl fun j _ => ?_
  show shapeCast S8192x4096 x shapeCasts_S4x2048x4096_S8192x4096 (ix2 (⟨b.val * 2048 + t.val, by omega⟩ : Fin 8192) j) * _ = _
  rw [shapeCast_apply x shapeCasts_S4x2048x4096_S8192x4096 (ix2 (⟨b.val * 2048 + t.val, by omega⟩ : Fin 8192) j) (ix3 b t j)
    (by rewrite [Shape.rowMajor_val_three, Shape.rowMajor_val_two]; rfl)]

variable (m : (ℓ : Loc nD τ sig) → Buf (Elt Ideal) ℓ) (ρ : Dev nD → PrngReg)

/-- The grid finds, as the array of its first operand, x with its two leading axes flattened. -/
theorem V_rows (c : Dev nD) : (V m c main_v0 : S8192x4096.Idx → Elt Ideal .f32)
    = shapeCast S8192x4096 (m ((c : Thread nD τ).loc main_arg0)) shapeCasts_S4x2048x4096_S8192x4096 := by
  show StableHlo.after hostOps0 (fun b => m (c, b)) (Proc.devRef .tc main_v0) = _
  after_results
  rfl

/-- After the grid the program cuts the array the grid filled back to three axes. -/
theorem tail_eq (c : Dev nD) :
    Pipeline.afterTail₀ cfgs (dats m) 0 (V0 m) [hostOps1] c main_v2
      = shapeCast S4x2048x4096 ((dats m 0 c).arrAt 4 cfg0.N) shapeCasts_S8192x4096_S4x2048x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 4 cfg0.N := Pipeline.withArrays_arr spec0 launch0.win.arr_inj c _ _ 4
  rw [e]
  rfl

/-- The program's result is the layer's result of its four arguments. -/
theorem result_eq (c : Dev nD) :
    Pipeline.afterTail₀ cfgs (dats m) 0 (V0 m) [hostOps1] c main_v2
      = linear (m ((c.tc : Thread nD τ).loc main_arg0)) (m ((c.tc : Thread nD τ).loc main_arg1)) (m ((c.tc : Thread nD τ).loc main_arg2)) (m ((c.tc : Thread nD τ).loc main_arg3)) := by
  rw [tail_eq, final, V_rows, V_main_arg1, V_main_arg2, V_main_arg3]
  exact unflatten_rowsOut _ _ _ _

/-- The kernel program's run, read: every weakly fair execution terminates with the result array at the layer's
    result of the argument arrays, and the arguments as they were. -/
theorem run : θ_run defs (onTc (τ := τ) (main (F := Ideal))) ⟨m, fun _ => 0, ρ⟩ fun r => ∀ c : Dev nD,
      r.2.mem ((c.tc : Thread nD τ).loc main_v2) = linear (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Tile

end
-- ==== Proof.Ref.lean ====
/-
  The reference computes the layer's result.

  The reference reshapes the code matrix to (4096, 32, 128) — row o, group g, lane l — converts it, multiplies by the
  scale and subtracts the offset of (o, g) broadcast along the lanes, reshapes back to (4096, 4096) and contracts the
  last axis of x with the last axis of that matrix.  Entry (o, k) of the reshaped-back matrix sits at group k / 128,
  lane k % 128 of row o, so it is the dequantised weight of row o at feature k, and entry (b, s, o) of the result is
  ∑ k < 4096, x[b, s, k] · w[o, k].
-/
import proofs.«149110_j7404523618310_1_alg».proof.Proof.Gen.ReferenceIdeal.Read
import proofs.«149110_j7404523618310_1_alg».proof.Proof.Spec

noncomputable section

namespace Cert.ReferenceIdeal.RefValue

open Idealize.ShloMosaic Idealize.ShloMosaic.ValueIdx Idealize.SL.Sem
open Cert.ReferenceIdeal Cert.ReferenceIdeal.Gen Cert.ReferenceIdeal.Read Cert.QuantLinear

/-- The reference's last stage is the layer's result, entry by entry. -/
theorem result_eq (x0 : (⟨S4x2048x4096, .f32⟩ : BufTy).Contents (Elt Ideal)) (x1 : (⟨S4096x4096, .i32⟩ : BufTy).Contents (Elt Ideal))
    (x2 x3 : (⟨S4096x32, .f32⟩ : BufTy).Contents (Elt Ideal)) :
    val_main_v9 (F := Ideal) x0 x1 x2 x3 = linear x0 x1 x2 x3 := by
  funext i
  rw [val_main_v9_apply]
  unfold linear
  refine Finset.sum_congr rfl fun k _ => ?_
  have hi : (i 2).val < 4096 := (i 2).isLt
  have hk : k.val < 4096 := k.isLt
  have el : lidx_main_v9 i k = ix3 (i 0) (i 1) k := funext fun a => Fin.ext (by
    match a with
    | ⟨0, _⟩ => rfl
    | ⟨1, _⟩ => rfl
    | ⟨2, _⟩ => rfl)
  -- the two reshapes undo each other at (o, k)
  have e1 : idx_main_v0 (idx_main_v8 (ridx_main_v9 i k)) = ix2 (i 2) k := funext fun a => Fin.ext (by
    match a with
    | ⟨0, _⟩ => show (((((i 2).val * 4096 + k.val) / 4096) * 32 + ((i 2).val * 4096 + k.val) / 128 % 32) * 128 + ((i 2).val * 4096 + k.val) % 128) / 4096 = (i 2).val; omega
    | ⟨1, _⟩ => show (((((i 2).val * 4096 + k.val) / 4096) * 32 + ((i 2).val * 4096 + k.val) / 128 % 32) * 128 + ((i 2).val * 4096 + k.val) % 128) % 4096 = k.val; omega)
  -- the scale and the offset are those of row o, group k / 128
  have e2 : idx_main_v2 (idx_main_v3 (idx_main_v8 (ridx_main_v9 i k))) = ix2 (i 2) (⟨k.val / 128, by omega⟩ : Fin 32) := funext fun a => Fin.ext (by
    match a with
    | ⟨0, _⟩ => show ((i 2).val * 4096 + k.val) / 4096 = (i 2).val; omega
    | ⟨1, _⟩ => show ((i 2).val * 4096 + k.val) / 128 % 32 = k.val / 128; omega)
  have e3 : idx_main_v5 (idx_main_v6 (idx_main_v8 (ridx_main_v9 i k))) = ix2 (i 2) (⟨k.val / 128, by omega⟩ : Fin 32) := funext fun a => Fin.ext (by
    match a with
    | ⟨0, _⟩ => show ((i 2).val * 4096 + k.val) / 4096 = (i 2).val; omega
    | ⟨1, _⟩ => show ((i 2).val * 4096 + k.val) / 128 % 32 = k.val / 128; omega)
  rw [el, val_main_v8_apply, val_main_v7_apply, val_main_v4_apply, val_main_v1_apply, val_main_v0_apply, val_main_v3_apply,
    val_main_v2_apply, val_main_v6_apply, val_main_v5_apply, e1, e2, e3]
  rfl

end Cert.ReferenceIdeal.RefValue

end
-- ==== Proof.lean ====
/-
  A linear layer with group-quantised weights: the kernel against its reference, over the extended reals.

  The weight matrix is stored as integer codes q (4096 × 4096) with one scale and one offset per row and per group of
  128 consecutive input features (4096 × 32 each):
      w[o, i] = q[o, i] · scale[o, i / 128] − offset[o, i / 128],
  and the layer maps x (4, 2048, 4096) to
      out[b, s, o] = ∑ i < 4096, x[b, s, i] · w[o, i].

  The reference forms w whole (a reshape to groups, a conversion, two broadcasts, a product, a difference, a reshape
  back) and contracts x with it in one product.  The kernel flattens x to 8192 rows and runs a grid of 8 × 32 points;
  a point takes 1024 rows of x and 128 rows of q, scale and offset, and in four steps of 1024 features fills a scratch
  with the dequantised weights of the step, eight groups at a time, and adds the step's product to a running tile; the
  tile is written to block (row tile, column tile) of an 8192 × 4096 array, which is finally cut back to three axes.

  Over the extended reals the narrowing of both factors to bf16 is the identity, a product into a zero accumulator is
  the plain sum of products, and the four steps' sums added in order are the sum over all 4096 features (addition of
  extended reals is associative and commutative, infinities included: the precondition's finiteness is never used).
  So both programs end with `Cert.QuantLinear.linear` of their arguments (Proof/Spec.lean):
    Proof/Tile.lean, TileRun.lean — a point's tile, entry by entry;  Proof/Blocks.lean — the blocks fill the array;
    Proof/Result.lean — the re-layings around the grid, and the kernel's run;  Proof/Ref.lean — the reference's stages.
  The idealisation rewrote no operation of the kernel, so `preserves` asks nothing.
-/
import proofs.«149110_j7404523618310_1_alg».proof.Defs
import proofs.«149110_j7404523618310_1_alg».proof.Proof.Gen.Kernel
import proofs.«149110_j7404523618310_1_alg».proof.Proof.Gen.Kernel.Skeleton
import proofs.«149110_j7404523618310_1_alg».proof.Proof.Gen.Kernel.Launch
import proofs.«149110_j7404523618310_1_alg».proof.Proof.Gen.Kernel.Points
import proofs.«149110_j7404523618310_1_alg».proof.Proof.Gen.Kernel.Frame
import proofs.«149110_j7404523618310_1_alg».proof.Proof.Gen.KernelIdeal
import proofs.«149110_j7404523618310_1_alg».proof.Proof.Gen.KernelIdeal.Skeleton
import proofs.«149110_j7404523618310_1_alg».proof.Proof.Gen.KernelIdeal.Launch
import proofs.«149110_j7404523618310_1_alg».proof.Proof.Gen.KernelIdeal.Points
import proofs.«149110_j7404523618310_1_alg».proof.Proof.Gen.KernelIdeal.Frame
import proofs.«149110_j7404523618310_1_alg».proof.Proof.Gen.ReferenceIdeal
import proofs.«149110_j7404523618310_1_alg».proof.Proof.Gen.ReferenceIdeal.Run
import proofs.«149110_j7404523618310_1_alg».proof.Proof.Gen.ReferenceIdeal.Read
import proofs.«149110_j7404523618310_1_alg».proof.Proof.Gen.Pre_finite_inputs
import proofs.«149110_j7404523618310_1_alg».proof.Proof.Result
import proofs.«149110_j7404523618310_1_alg».proof.Proof.Ref
import Idealize.ShloMosaic.Adequacy
import Idealize.ShloMosaic.Init

noncomputable section

namespace Cert.Proof

open Idealize.ShloMosaic Idealize.SL.Sem Cert.QuantLinear

/-- The kernel as printed runs and keeps its arguments. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both idealised programs end with the layer's result of arguments that agree. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v9_eq]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
